-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000 : Shape := ⟨1, ![300000]⟩
abbrev S512x64 : Shape := ⟨2, ![512, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S300000 32) (main_arg2 : IVec S300000 32) (main_arg3 : FVec F S512x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S300000 : Shape := ⟨1, ![300000]⟩
abbrev S512x64 : Shape := ⟨2, ![512, 64]⟩
abbrev S64 : Shape := ⟨1, ![64]⟩
abbrev S256x64 : Shape := ⟨2, ![256, 64]⟩
abbrev S256x128 : Shape := ⟨2, ![256, 128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S300000x1 : Shape := ⟨2, ![300000, 1]⟩
abbrev S300000x2 : Shape := ⟨2, ![300000, 2]⟩
abbrev S300000x64 : Shape := ⟨2, ![300000, 64]⟩
abbrev S1x64 : Shape := ⟨2, ![1, 64]⟩

abbrev nBuf : Space → Nat
  | .hbm => 37
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S300000, .i32⟩
  | .hbm, ⟨2, _⟩ => ⟨S300000, .i32⟩
  | .hbm, ⟨3, _⟩ => ⟨S512x64, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S256x128, .f32⟩
  | .hbm, ⟨8, _⟩ => ⟨S100000x128, .f32⟩
  | .hbm, ⟨9, _⟩ => ⟨S_, .i32⟩
  | .hbm, ⟨10, _⟩ => ⟨S300000, .i32⟩
  | .hbm, ⟨11, _⟩ => ⟨S300000, .i1⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S300000, .i32⟩
  | .hbm, ⟨16, _⟩ => ⟨S300000x1, .i32⟩
  | .hbm, ⟨17, _⟩ => ⟨S_, .i32⟩
  | .hbm, ⟨18, _⟩ => ⟨S300000x1, .i32⟩
  | .hbm, ⟨19, _⟩ => ⟨S300000x2, .i32⟩
  | .hbm, ⟨20, _⟩ => ⟨S300000x64, .f32⟩
  | .hbm, ⟨21, _⟩ => ⟨S_, .i32⟩
  | .hbm, ⟨22, _⟩ => ⟨S300000, .i32⟩
  | .hbm, ⟨23, _⟩ => ⟨S300000, .i1⟩
  | .hbm, ⟨24, _⟩ => ⟨S_, .i32⟩
  | .hbm, ⟨25, _⟩ => ⟨S300000, .i32⟩
  | .hbm, ⟨26, _⟩ => ⟨S300000, .i32⟩
  | .hbm, ⟨27, _⟩ => ⟨S300000, .i32⟩
  | .hbm, ⟨28, _⟩ => ⟨S300000x1, .i32⟩
  | .hbm, ⟨29, _⟩ => ⟨S_, .i32⟩
  | .hbm, ⟨30, _⟩ => ⟨S300000x1, .i32⟩
  | .hbm, ⟨31, _⟩ => ⟨S300000x2, .i32⟩
  | .hbm, ⟨32, _⟩ => ⟨S300000x64, .f32⟩
  | .hbm, ⟨33, _⟩ => ⟨S300000x64, .f32⟩
  | .hbm, ⟨34, _⟩ => ⟨S1x64, .f32⟩
  | .hbm, ⟨35, _⟩ => ⟨S300000x64, .f32⟩
  | .hbm, ⟨36, _⟩ => ⟨S300000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S512x64_S256x64_0_0 : S512x64.Slices ![0, 0] S256x64
  slices_S512x64_S256x64_256_0 : S512x64.Slices ![256, 0] S256x64
  concatenates_S256x64_S256x64_S256x128_d1 : Shape.Concatenates [S256x64, S256x64] S256x128 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  concatenates_S300000x1_S300000x1_S300000x2_d1 : Shape.Concatenates [S300000x1, S300000x1] S300000x2 1
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  dot_S5000x256_S256x128_S5000x128_1_0_0_1_n_n_wf : DotDims.WF S5000x256 S256x128 S5000x128 [1] [0] [0] [1] [] []
  gather_S100000x128_S300000x2_S300000x64_1_0_n_n_01_1_164_wf : GatherDims.WF S100000x128 S300000x2 S300000x64 [1] [0] [] [0, 1] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S300000x2_S300000x64_1_0_n_n_01_1_164 : GatherDims S100000x128 S300000x2 S300000x64 where
  offsetDims := [1]
  collapsedSliceDims := [0]
  operandBatchingDims := []
  startIndicesBatchingDims := []
  startIndexMap := [0, 1]
  indexVectorDim := 1
  sliceSizes := ![1, 64]
  wf := gather_S100000x128_S300000x2_S300000x64_1_0_n_n_01_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S300000 : Shape := ⟨1, ![300000]⟩
abbrev S512x64 : Shape := ⟨2, ![512, 64]⟩
abbrev S64 : Shape := ⟨1, ![64]⟩
abbrev S256x64 : Shape := ⟨2, ![256, 64]⟩
abbrev S_ : Shape := ⟨0, ![]⟩
abbrev S300000x1 : Shape := ⟨2, ![300000, 1]⟩
abbrev S300000x256 : Shape := ⟨2, ![300000, 256]⟩
abbrev S300000x64 : Shape := ⟨2, ![300000, 64]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S300000, .i32⟩
  | .hbm, ⟨2, _⟩ => ⟨S300000, .i32⟩
  | .hbm, ⟨3, _⟩ => ⟨S512x64, .f32⟩
  | .hbm, ⟨4, _⟩ => ⟨S64, .f32⟩
  | .hbm, ⟨5, _⟩ => ⟨S256x64, .f32⟩
  | .hbm, ⟨6, _⟩ => ⟨S256x64, .f32⟩
  | .hbm, ⟨7, _⟩ => ⟨S_, .i32⟩
  | .hbm, ⟨8, _⟩ => ⟨S300000, .i32⟩
  | .hbm, ⟨9, _⟩ => ⟨S300000, .i1⟩
  | .hbm, ⟨10, _⟩ => ⟨S_, .i32⟩
  | .hbm, ⟨11, _⟩ => ⟨S300000, .i32⟩
  | .hbm, ⟨12, _⟩ => ⟨S300000, .i32⟩
  | .hbm, ⟨13, _⟩ => ⟨S300000, .i32⟩
  | .hbm, ⟨14, _⟩ => ⟨S300000x1, .i32⟩
  | .hbm, ⟨15, _⟩ => ⟨S300000x256, .f32⟩
  | .hbm, ⟨16, _⟩ => ⟨S300000x64, .f32⟩
  | .hbm, ⟨17, _⟩ => ⟨S_, .i32⟩
  | .hbm, ⟨18, _⟩ => ⟨S300000, .i32⟩
  | .hbm, ⟨19, _⟩ => ⟨S300000, .i1⟩
  | .hbm, ⟨20, _⟩ => ⟨S_, .i32⟩
  | .hbm, ⟨21, _⟩ => ⟨S300000, .i32⟩
  | .hbm, ⟨22, _⟩ => ⟨S300000, .i32⟩
  | .hbm, ⟨23, _⟩ => ⟨S300000, .i32⟩
  | .hbm, ⟨24, _⟩ => ⟨S300000x1, .i32⟩
  | .hbm, ⟨25, _⟩ => ⟨S300000x256, .f32⟩
  | .hbm, ⟨26, _⟩ => ⟨S300000x64, .f32⟩
  | .hbm, ⟨27, _⟩ => ⟨S300000x64, .f32⟩
  | .hbm, ⟨28, _⟩ => ⟨S1x64, .f32⟩
  | .hbm, ⟨29, _⟩ => ⟨S300000x64, .f32⟩
  | .hbm, ⟨30, _⟩ => ⟨S300000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S512x64_S256x64_0_0 : S512x64.Slices ![0, 0] S256x64
  slices_S512x64_S256x64_256_0 : S512x64.Slices ![256, 0] S256x64
  bcast_S_S300000 : S_.BroadcastsInDim S300000 (![] : Fin 0 → Fin S300000.rank)
  bcast_S300000_S300000x1_0 : S300000.BroadcastsInDim S300000x1 (![0] : Fin 1 → Fin S300000x1.rank)
  bcast_S64_S1x64_1 : S64.BroadcastsInDim S1x64 (![1] : Fin 1 → Fin S1x64.rank)
  bcast_S1x64_S300000x64_0_1 : S1x64.BroadcastsInDim S300000x64 (![0, 1] : Fin 2 → Fin S300000x64.rank)
  gather_S100000x256_S300000x1_S300000x256_1_0_n_n_0_1_1256_wf : GatherDims.WF S100000x256 S300000x1 S300000x256 [1] [0] [] [0] [] 1 ![1, 256]
  dot_S300000x256_S256x64_S300000x64_1_0_0_1_n_n_wf : DotDims.WF S300000x256 S256x64 S300000x64 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S256x64_S300000x64_1_0_0_1_n_n : DotDims S300000x256 S256x64 S300000x64 where
  lhsContracting := [1]
  rhsContracting := [0]
  lhsNonContracting := [0]
  rhsNonContracting := [1]
  lhsBatch := []
  rhsBatch := []
  wf := dot_S300000x256_S256x64_S300000x64_1_0_0_1_n_n_wf

class Facts : Prop extends Facts₀ where

variable [Facts]
-- ==== Proof.Spec.lean ====
/-
  The result both programs are compared with, as one function of the five argument arrays.

  An edge `e` names two nodes by the words `src e` and `dst e`.  A word is first wrapped (a negative word has the
  number of nodes, 100000, added to it) and then read as a signed integer and clamped into the node table,
  `0 … 99999`: that is the row a `stablehlo.gather` along axis 0 reads.  The score of edge `e` in class `c` is

      Σ_k x[node (src e), k] · W[k, c]  +  Σ_k x[node (dst e), k] · W[256 + k, c]  +  b[c]

  over the extended reals.  No program is imported here: only the shapes' literal extents appear.
-/
import Idealize.ShloMosaic.PureOps.Ideal
import Idealize.ShloMosaic.Lib.ValueIdx

noncomputable section

open scoped BigOperators

namespace Cert.EdgeScore

open Idealize.ShloMosaic Idealize.ShloMosaic.ValueIdx

/-- A node word with a negative value wrapped around the table of 100000 nodes. -/
def wrapped (a : BitVec 32) : BitVec 32 :=
  Scalar.select (IntOp.cmpi .slt a 0#32) (IntOp.addi a 100000#32) a

/-- The row of the node table a word names: the wrapped word read signed, clamped to the last row. -/
def node (a : BitVec 32) : Fin 100000 := ⟨min (wrapped a).toInt.toNat 99999, by omega⟩

/-- Row `r` of `x` against column `c` of the upper half of `W` (rows `0 … 255`). -/
def projTop (x : (⟨2, ![100000, 256]⟩ : Shape).Idx → EReal) (W : (⟨2, ![512, 64]⟩ : Shape).Idx → EReal)
    (r : Fin 100000) (c : Fin 64) : EReal :=
  ∑ k : Fin 256, x (ix2 r k) * W (ix2 (⟨k.val, by omega⟩ : Fin 512) c)

/-- Row `r` of `x` against column `c` of the lower half of `W` (rows `256 … 511`). -/
def projBot (x : (⟨2, ![100000, 256]⟩ : Shape).Idx → EReal) (W : (⟨2, ![512, 64]⟩ : Shape).Idx → EReal)
    (r : Fin 100000) (c : Fin 64) : EReal :=
  ∑ k : Fin 256, x (ix2 r k) * W (ix2 (⟨256 + k.val, by omega⟩ : Fin 512) c)

/-- The score of edge `e` in class `c`. -/
def scoreAt (x : (⟨2, ![100000, 256]⟩ : Shape).Idx → EReal) (s d : (⟨1, ![300000]⟩ : Shape).Idx → BitVec 32)
    (W : (⟨2, ![512, 64]⟩ : Shape).Idx → EReal) (b : (⟨1, ![64]⟩ : Shape).Idx → EReal) (e : Fin 300000) (c : Fin 64) : EReal :=
  projTop x W (node (s (ix1 e))) c + projBot x W (node (d (ix1 e))) c + b (ix1 c)

/-- The whole array of scores. -/
def score (x : (⟨2, ![100000, 256]⟩ : Shape).Idx → EReal) (s d : (⟨1, ![300000]⟩ : Shape).Idx → BitVec 32)
    (W : (⟨2, ![512, 64]⟩ : Shape).Idx → EReal) (b : (⟨1, ![64]⟩ : Shape).Idx → EReal) :
    (⟨2, ![300000, 64]⟩ : Shape).Idx → EReal :=
  fun i => scoreAt x s d W b (i 0) (i 1)

end Cert.EdgeScore

end
-- ==== Proof.RefIsSpec.lean ====
/-
  The reference, read entry by entry, computes the score array of Spec.lean.

  The reference gathers the rows of `x` named by the wrapped source (destination) words, multiplies the gathered
  [300000, 256] array by the upper (lower) half of `W`, adds the two products and the broadcast bias.  Entry `(e, c)`
  of a product of gathered rows is the sum over `k` of `x[node, k] · W[k, c]` with `node` the clamped row of edge `e`:
  the gather only renames the row the sum runs along.
-/
import proofs.«140750_j80539226735106_2_alg».proof.Proof.Gen.ReferenceIdeal.Read
import proofs.«140750_j80539226735106_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeScore

/-- The reference's row gather read at `(e, k)`: column `k` of the row the start index `idx[e, 0]` names, that index
    read signed and clamped to the last row. -/
theorem gather_rows_apply {α : Type} (x : S100000x256.Idx → α) (idx : IVec S300000x1 32) (e : Fin 300000) (k : Fin 256) :
    Host.gather gather_S100000x256_S300000x1_S300000x256_1_0_n_n_0_1_1256 x idx (ix2 e k)
      = x (ix2 (⟨min (idx (ix2 e (0 : Fin 1))).toInt.toNat 99999, by omega⟩ : Fin 100000) k) := by
  unfold Host.gather
  refine congrArg x ?_
  funext a
  refine Fin.ext ?_
  match a with
  | ⟨0, _⟩ =>
    show gather_S100000x256_S300000x1_S300000x256_1_0_n_n_0_1_1256.start (ix2 e k) idx 0
        + gather_S100000x256_S300000x1_S300000x256_1_0_n_n_0_1_1256.batchCoord (ix2 e k) 0
        + gather_S100000x256_S300000x1_S300000x256_1_0_n_n_0_1_1256.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x256_S300000x1_S300000x256_1_0_n_n_0_1_1256.startIndexMap from List.mem_singleton.mpr rfl)]
    have hsi : gather_S100000x256_S300000x1_S300000x256_1_0_n_n_0_1_1256.siIdx (ix2 e k) ⟨List.idxOf (0 : Fin 2) gather_S100000x256_S300000x1_S300000x256_1_0_n_n_0_1_1256.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x256_S300000x1_S300000x256_1_0_n_n_0_1_1256.start (ix2 e k) idx 1
        + gather_S100000x256_S300000x1_S300000x256_1_0_n_n_0_1_1256.batchCoord (ix2 e k) 1
        + gather_S100000x256_S300000x1_S300000x256_1_0_n_n_0_1_1256.offCoord (ix2 e k) 1 = _
    rw [GatherDims.batchCoord_eq_zero _ _ _ List.not_mem_nil]
    unfold GatherDims.start
    rw [dif_neg (by decide)]
    simp only [Nat.add_zero, Nat.zero_add]
    rfl

/-- The same with the start index named: whatever word `w` the proof knows `idx[e, 0]` to be. -/
theorem gather_rows_of_eq {α : Type} (x : S100000x256.Idx → α) (idx : IVec S300000x1 32) (e : Fin 300000) (k : Fin 256)
    (w : BitVec 32) (hw : idx (ix2 e (0 : Fin 1)) = w) :
    Host.gather gather_S100000x256_S300000x1_S300000x256_1_0_n_n_0_1_1256 x idx (ix2 e k)
      = x (ix2 (⟨min w.toInt.toNat 99999, by omega⟩ : Fin 100000) k) := by
  subst hw; exact gather_rows_apply x idx e k

/-- Entry `(e, 0)` of the start indices the reference builds from the source words: the wrapped word of edge `e`. -/
theorem start_src (x1 : (⟨S300000, .i32⟩ : BufTy).Contents (Elt Ideal)) (e : Fin 300000) :
    val_main_v7 (F := Ideal) x1 (ix2 e (0 : Fin 1)) = wrapped (x1 (ix1 e)) := by
  rw [val_main_v7_apply, val_main_v6_apply, val_main_v3_apply, val_main_v5_apply, val_main_v2_apply, val_main_v4_apply,
    val_main_c_apply, val_main_c_0_apply]
  have hi : idx_main_v7 (ix2 e (0 : Fin 1)) = ix1 e := by funext a; match a with | ⟨0, _⟩ => rfl
  rw [hi]; rfl

/-- The same for the destination words. -/
theorem start_dst (x2 : (⟨S300000, .i32⟩ : BufTy).Contents (Elt Ideal)) (e : Fin 300000) :
    val_main_v15 (F := Ideal) x2 (ix2 e (0 : Fin 1)) = wrapped (x2 (ix1 e)) := by
  rw [val_main_v15_apply, val_main_v14_apply, val_main_v11_apply, val_main_v13_apply, val_main_v10_apply, val_main_v12_apply,
    val_main_c_1_apply, val_main_c_2_apply]
  have hi : idx_main_v15 (ix2 e (0 : Fin 1)) = ix1 e := by funext a; match a with | ⟨0, _⟩ => rfl
  rw [hi]; rfl

/-- The gathered source rows: entry `(e, k)` is `x` at the source node of edge `e`, column `k`. -/
theorem gathered_src (x0 : (⟨S100000x256, .f32⟩ : BufTy).Contents (Elt Ideal)) (x1 : (⟨S300000, .i32⟩ : BufTy).Contents (Elt Ideal))
    (e : Fin 300000) (k : Fin 256) :
    val_main_v8 (F := Ideal) x0 x1 (ix2 e k) = x0 (ix2 (node (x1 (ix1 e))) k) := by
  unfold val_main_v8
  exact gather_rows_of_eq x0 _ e k _ (start_src x1 e)

/-- The gathered destination rows. -/
theorem gathered_dst (x0 : (⟨S100000x256, .f32⟩ : BufTy).Contents (Elt Ideal)) (x2 : (⟨S300000, .i32⟩ : BufTy).Contents (Elt Ideal))
    (e : Fin 300000) (k : Fin 256) :
    val_main_v16 (F := Ideal) x0 x2 (ix2 e k) = x0 (ix2 (node (x2 (ix1 e))) k) := by
  unfold val_main_v16
  exact gather_rows_of_eq x0 _ e k _ (start_dst x2 e)

/-- The upper half of `W`, entry `(k, c)`. -/
theorem upper_half (x3 : (⟨S512x64, .f32⟩ : BufTy).Contents (Elt Ideal)) (k : Fin 256) (c : Fin 64) :
    val_main_v0 (F := Ideal) x3 (ix2 k c) = x3 (ix2 (⟨k.val, by omega⟩ : Fin 512) c) := by
  rw [val_main_v0_apply]
  refine congrArg x3 ?_
  funext a; match a with | ⟨0, _⟩ => rfl | ⟨1, _⟩ => rfl

/-- The lower half of `W`, entry `(k, c)`. -/
theorem lower_half (x3 : (⟨S512x64, .f32⟩ : BufTy).Contents (Elt Ideal)) (k : Fin 256) (c : Fin 64) :
    val_main_v1 (F := Ideal) x3 (ix2 k c) = x3 (ix2 (⟨256 + k.val, by omega⟩ : Fin 512) c) := by
  rw [val_main_v1_apply]
  refine congrArg x3 ?_
  funext a; match a with | ⟨0, _⟩ => rfl | ⟨1, _⟩ => rfl

/-- The bias broadcast over the edges, entry `(e, c)`. -/
theorem bias_apply (x4 : (⟨S64, .f32⟩ : BufTy).Contents (Elt Ideal)) (e : Fin 300000) (c : Fin 64) :
    val_main_v20 (F := Ideal) x4 (ix2 e c) = x4 (ix1 c) := by
  rw [val_main_v20_apply, val_main_v19_apply]
  refine congrArg x4 ?_
  funext a; match a with | ⟨0, _⟩ => rfl

/-- THE REFERENCE'S RESULT IS THE SCORE ARRAY: its two products of gathered rows with the halves of `W`, read entry by
    entry, are the two sums of `scoreAt`, and its last addition the bias. -/
theorem result_eq_score (x0 : (⟨S100000x256, .f32⟩ : BufTy).Contents (Elt Ideal)) (x1 x2 : (⟨S300000, .i32⟩ : BufTy).Contents (Elt Ideal))
    (x3 : (⟨S512x64, .f32⟩ : BufTy).Contents (Elt Ideal)) (x4 : (⟨S64, .f32⟩ : BufTy).Contents (Elt Ideal)) :
    val_main_v21 (F := Ideal) x0 x1 x2 x3 x4 = score x0 x1 x2 x3 x4 := by
  funext i
  obtain ⟨e, c, rfl⟩ : ∃ (e : Fin 300000) (c : Fin 64), i = ix2 e c := ⟨i 0, i 1, eq_ix2 i⟩
  rw [val_main_v21_apply, val_main_v18_apply, val_main_v9_apply, val_main_v17_apply, bias_apply]
  have hl9 : ∀ k : Fin 256, lidx_main_v9 (ix2 e c) k = ix2 e k := fun k => by
    funext a; match a with | ⟨0, _⟩ => rfl | ⟨1, _⟩ => rfl
  have hr9 : ∀ k : Fin 256, ridx_main_v9 (ix2 e c) k = ix2 k c := fun k => by
    funext a; match a with | ⟨0, _⟩ => rfl | ⟨1, _⟩ => rfl
  have hl17 : ∀ k : Fin 256, lidx_main_v17 (ix2 e c) k = ix2 e k := fun k => by
    funext a; match a with | ⟨0, _⟩ => rfl | ⟨1, _⟩ => rfl
  have hr17 : ∀ k : Fin 256, ridx_main_v17 (ix2 e c) k = ix2 k c := fun k => by
    funext a; match a with | ⟨0, _⟩ => rfl | ⟨1, _⟩ => rfl
  simp only [hl9, hr9, hl17, hr17, gathered_src, gathered_dst, upper_half, lower_half]
  rfl

end Cert.ReferenceIdeal.RefValue

end
-- ==== Proof.KernelBlocks.lean ====
/-
  What the projection region leaves in its output array: the product of `x` with the packed weights.

  Each of the 20 grid points loads a block of 5000 rows of `x` and the whole packed weight matrix `Wp` ([256, 128]),
  multiplies them into a zero accumulator and stores the [5000, 128] product.  At the ideal values the matmul's entry
  `(p, q)` is the plain sum over `k` of `lhs[p, k] · rhs[k, q]` (rounding to bf16 is the identity there), and row `p`
  of block `t` is row `5000·t + p` of `x`; so what point `t` writes back is block `t` of ONE whole-array function,
  `product X Wp [r, j] = Σ_k X[r, k] · Wp[k, j]`.  The 20 blocks tile the [100000, 128] array, which therefore ends
  holding that function of the arrays the region found.
-/
import proofs.«140750_j80539226735106_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Projection

open Cert.KernelIdeal Cert.KernelIdeal.Gen Idealize.ShloMosaic Idealize.ShloMosaic.TcCoe Idealize.ShloMosaic.ValueIdx Idealize.SL.Sem
open Idealize.ShloMosaic.Pipeline (Dat)

/-! ## The product, entry by entry -/

/-- Entry `(r, j)` of the product of a [100000, 256] array with a [256, 128] one. -/
def productAt (X : S100000x256.Idx → EReal) (Wp : S256x128.Idx → EReal) (r : Fin 100000) (j : Fin 128) : EReal :=
  ∑ k : Fin 256, X (ix2 r k) * Wp (ix2 k j)

/-- The whole product. -/
def product (X : S100000x256.Idx → EReal) (Wp : S256x128.Idx → EReal) : S100000x128.Idx → EReal :=
  fun i => productAt X Wp (i 0) (i 1)

/-! ## The body's matmul at an entry -/

theorem lhs_0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The stored value at `(p, q)`: row `p` of the loaded `x` block against column `q` of the loaded weights. -/
theorem stored_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er, shapeCast_self]
  rfl

end Cert.KernelIdeal.Projection

end
-- ==== Proof.KernelArray.lean ====
/-
  From the blocks to the array: the projection region's output array after the run is the product.

  Point `t` of the grid reads rows `5000·t … 5000·t + 4999` of `x` (all 256 columns) and the whole of the packed weights,
  and writes rows `5000·t … 5000·t + 4999` of the output (all 128 columns): the three index maps are decided once over the
  20 points.  With the stored value read entry by entry, what point `t` writes back is block `t` of the whole product;
  row `r` of the output lies in the block of point `r / 5000`, so the blocks cover the array.
-/
import proofs.«140750_j80539226735106_2_alg».proof.Proof.KernelBlocks

set_option maxRecDepth 16384

noncomputable section

open scoped BigOperators

namespace Cert.KernelIdeal.Projection

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: the `x` window and the output window are at block row `t`, block column 0; the
    weights window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem block_row_onto : ∀ q0 : Fin 20, ∃ t : Fin cfg0.N, win0_2.index t = ![q0.val, 0] :=
  (by decide +kernel : ∀ q0 : Fin 20, ∃ t : Fin grid0.N, win0_2.index t = ![q0.val, 0])

/-- The `x` window's block at a point is `x`, as the region finds it, read through the block. -/
theorem x_block_apply (c : Dev nD) (t : Fin cfg0.N) (y : S5000x256.Idx) :
    iblk m c 0 t y = V m c main_arg0 (((cfg0.win 0).blk t).view.emb y) := rfl

/-- The weights window's block at a point is the packed weights, as the region finds them, read through the block. -/
theorem w_block_apply (c : Dev nD) (t : Fin cfg0.N) (y : S256x128.Idx) :
    iblk m c 1 t y = V m c main_v2 (((cfg0.win 1).blk t).view.emb y) := rfl

/-- WHAT POINT `t` WRITES BACK is block `t` of the product of `x` with the packed weights, both as the region finds them. -/
theorem flushed_eq (c : Dev nD) (t : Fin cfg0.N) :
    (dats m 0 c).flushed 2 t = ((cfg0.win 2).blk t).view.read (Elt Ideal) (product (V m c main_arg0) (V m c main_v2)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x128) zero_offsets]
  obtain ⟨e0, e1, e2, e3, e4, e5⟩ := block_indices t
  funext j
  obtain ⟨p, q, rfl⟩ : ∃ (p : Fin 5000) (q : Fin 128), j = ix2 p q := ⟨j 0, j 1, eq_ix2 j⟩
  show k0_pay1 (iblk m c 0 t) (iblk m c 1 t) (ix2 p q)
    = productAt (V m c main_arg0) (V m c main_v2) (((cfg0.win 2).blk t).view.emb (ix2 p q) 0) (((cfg0.win 2).blk t).view.emb (ix2 p q) 1)
  refine (stored_apply _ _ p q).trans ?_
  unfold productAt
  refine Finset.sum_congr rfl fun k _ => ?_
  rw [x_block_apply, w_block_apply]
  have h0 : ((cfg0.win 0).blk t).view.emb (ix2 p k) = ix2 (((cfg0.win 2).blk t).view.emb (ix2 p q) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : ((cfg0.win 1).blk t).view.emb (ix2 k q) = ix2 k (((cfg0.win 2).blk t).view.emb (ix2 p q) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]
  rfl

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v3).slice (win0_2.rect t)).set ↔ _
  rw [View.set_slice_whole, Rect.mem_set_unit]
  exact Iff.rfl

/-- Every index of the output array is in the block of the point its row falls in. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_row_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the run: the product of `x` with the packed weights, both as the region finds them. -/
theorem projected (c : Dev nD) : (dats m 0 c).arrAt 2 cfg0.N = product (V m c main_arg0) (V m c main_v2) :=
  (dats m 0 c).arrAt_eq_of_cover 2 _ (fun t _ => flushed_eq m c t) blocks_cover

end Cert.KernelIdeal.Projection

end
-- ==== Proof.KernelTail.lean ====
/-
  The host lines after the projection region, as one function of the projected array, the two node arrays and the bias,
  read entry by entry.

  From each node array the program builds a [300000, 2] array of start indices: column 0 holds the wrapped node word,
  column 1 a constant column offset (0 for the sources, 64 for the destinations).  A gather with slice sizes (1, 64) then
  reads, for edge `e` and class `c`, the projected array at row `node` (the start index read signed and clamped to the
  last row) and column `offset + c` (the column start clamped to 128 − 64 = 64, which both offsets respect).  The two
  gathered arrays and the broadcast bias are added.
-/
import proofs.«140750_j80539226735106_2_alg».proof.Proof.Gen.KernelIdeal
import proofs.«140750_j80539226735106_2_alg».proof.Proof.Spec
import Idealize.ShloMosaic.Lib.Pipeline.Value
import Idealize.ShloMosaic.Lib.ValueIdx

noncomputable section

open scoped BigOperators

namespace Cert.KernelIdeal.EdgeGather

open Cert.KernelIdeal Cert.KernelIdeal.Gen Idealize.ShloMosaic Idealize.ShloMosaic.ValueIdx Cert.EdgeScore

/-! ## The gather of 64 columns of a row, read at an entry -/

/-- The gather read at `(e, c)`: row `idx[e, 0]` (read signed, clamped to the last row), column `idx[e, 1]` (read signed,
    clamped to 64) plus `c`. -/
theorem gather_apply {α : Type} (P : S100000x128.Idx → α) (idx : IVec S300000x2 32) (e : Fin 300000) (c : Fin 64) :
    Host.gather gather_S100000x128_S300000x2_S300000x64_1_0_n_n_01_1_164 P idx (ix2 e c)
      = P (ix2 (⟨min (idx (ix2 e (0 : Fin 2))).toInt.toNat 99999, by omega⟩ : Fin 100000)
          (⟨min (idx (ix2 e (1 : Fin 2))).toInt.toNat 64 + c.val, by omega⟩ : Fin 128)) := by
  unfold Host.gather
  refine congrArg P ?_
  funext a
  refine Fin.ext ?_
  match a with
  | ⟨0, _⟩ =>
    show gather_S100000x128_S300000x2_S300000x64_1_0_n_n_01_1_164.start (ix2 e c) idx 0 + gather_S100000x128_S300000x2_S300000x64_1_0_n_n_01_1_164.batchCoord (ix2 e c) 0 + gather_S100000x128_S300000x2_S300000x64_1_0_n_n_01_1_164.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S300000x2_S300000x64_1_0_n_n_01_1_164.startIndexMap by decide)]
    have hsi : gather_S100000x128_S300000x2_S300000x64_1_0_n_n_01_1_164.siIdx (ix2 e c) ⟨List.idxOf (0 : Fin 2) gather_S100000x128_S300000x2_S300000x64_1_0_n_n_01_1_164.startIndexMap,
        List.idxOf_lt_length_iff.2 (show (0 : Fin 2) ∈ gather_S100000x128_S300000x2_S300000x64_1_0_n_n_01_1_164.startIndexMap by decide)⟩ = ix2 e (0 : Fin 2) := by
      funext b; refine Fin.ext ?_
      match b with
      | ⟨0, _⟩ => rfl
      | ⟨1, _⟩ => rfl
    rw [hsi]
    rfl
  | ⟨1, _⟩ =>
    show gather_S100000x128_S300000x2_S300000x64_1_0_n_n_01_1_164.start (ix2 e c) idx 1 + gather_S100000x128_S300000x2_S300000x64_1_0_n_n_01_1_164.batchCoord (ix2 e c) 1 + gather_S100000x128_S300000x2_S300000x64_1_0_n_n_01_1_164.offCoord (ix2 e c) 1 = _
    rw [GatherDims.batchCoord_eq_zero _ _ _ List.not_mem_nil]
    simp only [Nat.add_zero]
    unfold GatherDims.start
    rw [dif_pos (show (1 : Fin 2) ∈ gather_S100000x128_S300000x2_S300000x64_1_0_n_n_01_1_164.startIndexMap by decide)]
    have hsi : gather_S100000x128_S300000x2_S300000x64_1_0_n_n_01_1_164.siIdx (ix2 e c) ⟨List.idxOf (1 : Fin 2) gather_S100000x128_S300000x2_S300000x64_1_0_n_n_01_1_164.startIndexMap,
        List.idxOf_lt_length_iff.2 (show (1 : Fin 2) ∈ gather_S100000x128_S300000x2_S300000x64_1_0_n_n_01_1_164.startIndexMap by decide)⟩ = ix2 e (1 : Fin 2) := by
      funext b; refine Fin.ext ?_
      match b with
      | ⟨0, _⟩ => rfl
      | ⟨1, _⟩ => rfl
    rw [hsi]
    rfl

/-- The same with the two start words named. -/
theorem gather_of_eq {α : Type} (P : S100000x128.Idx → α) (idx : IVec S300000x2 32) (e : Fin 300000) (c : Fin 64)
    (w0 w1 : BitVec 32) (h0 : idx (ix2 e (0 : Fin 2)) = w0) (h1 : idx (ix2 e (1 : Fin 2)) = w1) :
    Host.gather gather_S100000x128_S300000x2_S300000x64_1_0_n_n_01_1_164 P idx (ix2 e c)
      = P (ix2 (⟨min w0.toInt.toNat 99999, by omega⟩ : Fin 100000) (⟨min w1.toInt.toNat 64 + c.val, by omega⟩ : Fin 128)) := by
  subst h0 h1; exact gather_apply P idx e c

/-! ## The start indices -/

/-- The [300000, 2] start indices built from a node array `a` and a column offset `col`. -/
def startIndices (a : IVec S300000 32) (col : BitVec 32) : IVec S300000x2 32 :=
  concatenate S300000x2 1
    [⟨S300000x1, broadcastInDim S300000x1 ![0] bcast_S300000_S300000x1_0
        (select (cmpi .slt a (broadcastInDim S300000 ![] bcast_S_S300000 (constantI S_ 32 0#32)))
          (addi a (broadcastInDim S300000 ![] bcast_S_S300000 (constantI S_ 32 100000#32))) a)⟩,
     ⟨S300000x1, broadcastInDim S300000x1 ![] bcast_S_S300000x1 (constantI S_ 32 col)⟩]
    concatenates_S300000x1_S300000x1_S300000x2_d1

/-- Column 0 of the start indices: the wrapped node word. -/
theorem startIndices_row (a : IVec S300000 32) (col : BitVec 32) (e : Fin 300000) :
    startIndices a col (ix2 e (0 : Fin 2)) = wrapped (a (ix1 e)) := by
  unfold startIndices
  refine (concatenate_pair_apply_left (t := S300000x2) (s₁ := S300000x1) (s₂ := S300000x1) (1 : Fin 2) _ _ concatenates_S300000x1_S300000x1_S300000x2_d1 (ix2 e (0 : Fin 2)) rfl
    (ix2 e (0 : Fin 1)) (fun b => by match b with | ⟨0, _⟩ => rfl | ⟨1, _⟩ => rfl)).trans ?_
  refine (broadcastInDim_apply _ bcast_S300000_S300000x1_0 _ (ix2 e (0 : Fin 1)) (ix1 e) (fun b => by
    match b with | ⟨0, _⟩ => show e.val = if (300000 : Nat) = 1 then 0 else e.val; rw [if_neg (by decide)])).trans ?_
  show Scalar.select (IntOp.cmpi .slt (a (ix1 e)) (broadcastInDim S300000 ![] bcast_S_S300000 (constantI S_ 32 0#32) (ix1 e)))
    (IntOp.addi (a (ix1 e)) (broadcastInDim S300000 ![] bcast_S_S300000 (constantI S_ 32 100000#32) (ix1 e))) (a (ix1 e)) = _
  rw [broadcastInDim_apply _ bcast_S_S300000 (constantI S_ 32 0#32) (ix1 e) ix0 (fun b => b.elim0),
    broadcastInDim_apply _ bcast_S_S300000 (constantI S_ 32 100000#32) (ix1 e) ix0 (fun b => b.elim0)]
  rfl

/-- Column 1 of the start indices: the column offset. -/
theorem startIndices_col (a : IVec S300000 32) (col : BitVec 32) (e : Fin 300000) :
    startIndices a col (ix2 e (1 : Fin 2)) = col := by
  unfold startIndices
  refine (concatenate_pair_apply_right (t := S300000x2) (s₁ := S300000x1) (s₂ := S300000x1) (1 : Fin 2) _ _ concatenates_S300000x1_S300000x1_S300000x2_d1 (ix2 e (1 : Fin 2)) rfl rfl
    (ix2 e (0 : Fin 1)) (fun b hb => by match b with | ⟨0, _⟩ => rfl | ⟨1, _⟩ => exact absurd rfl hb) rfl).trans ?_
  exact broadcastInDim_apply _ bcast_S_S300000x1 (constantI S_ 32 col) (ix2 e (0 : Fin 1)) ix0 (fun b => b.elim0)

/-! ## The lines after the region -/

/-- The result of the lines after the region, from the projected array `P`, the node arrays and the bias. -/
def gatherAdd (P : FVec Ideal S100000x128 .f32) (a1 a2 : IVec S300000 32) (b : FVec Ideal S64 .f32) : FVec Ideal S300000x64 .f32 :=
  addf (addf (Host.gather gather_S100000x128_S300000x2_S300000x64_1_0_n_n_01_1_164 P (startIndices a1 0#32)) (Host.gather gather_S100000x128_S300000x2_S300000x64_1_0_n_n_01_1_164 P (startIndices a2 64#32)))
    (broadcastInDim S300000x64 ![0, 1] bcast_S1x64_S300000x64_0_1 (broadcastInDim S1x64 ![1] bcast_S64_S1x64_1 b))

/-- Entry `(e, c)`: the projected array at the source node, column `c`, plus at the destination node, column `64 + c`,
    plus the bias of class `c`. -/
theorem gatherAdd_apply (P : FVec Ideal S100000x128 .f32) (a1 a2 : IVec S300000 32) (b : FVec Ideal S64 .f32)
    (e : Fin 300000) (c : Fin 64) :
    gatherAdd P a1 a2 b (ix2 e c)
      = P (ix2 (node (a1 (ix1 e))) (⟨c.val, by omega⟩ : Fin 128)) + P (ix2 (node (a2 (ix1 e))) (⟨64 + c.val, by omega⟩ : Fin 128))
        + b (ix1 c) := by
  unfold gatherAdd
  rw [addf_apply, addf_apply,
    gather_of_eq P _ e c _ _ (startIndices_row a1 0#32 e) (startIndices_col a1 0#32 e),
    gather_of_eq P _ e c _ _ (startIndices_row a2 64#32 e) (startIndices_col a2 64#32 e)]
  have hb : broadcastInDim S300000x64 ![0, 1] bcast_S1x64_S300000x64_0_1 (broadcastInDim S1x64 ![1] bcast_S64_S1x64_1 b) (ix2 e c) = b (ix1 c) := by
    refine (broadcastInDim_apply _ bcast_S1x64_S300000x64_0_1 _ (ix2 e c) (ix2 (0 : Fin 1) c) (fun a => by
      match a with
      | ⟨0, _⟩ => show 0 = if (1 : Nat) = 1 then 0 else e.val; rw [if_pos rfl]
      | ⟨1, _⟩ => show c.val = if (64 : Nat) = 1 then 0 else c.val; rw [if_neg (by decide)])).trans ?_
    exact broadcastInDim_apply _ bcast_S64_S1x64_1 b (ix2 (0 : Fin 1) c) (ix1 c) (fun a => by
      match a with
      | ⟨0, _⟩ => show c.val = if (64 : Nat) = 1 then 0 else c.val; rw [if_neg (by decide)])
  rw [hb]
  have c0 : (⟨min (0#32 : BitVec 32).toInt.toNat 64 + c.val, by omega⟩ : Fin 128) = ⟨c.val, by omega⟩ := Fin.ext (by
    show min (0#32 : BitVec 32).toInt.toNat 64 + c.val = c.val
    rw [show (0#32 : BitVec 32).toInt.toNat = 0 by decide]; omega)
  have c64 : (⟨min (64#32 : BitVec 32).toInt.toNat 64 + c.val, by omega⟩ : Fin 128) = ⟨64 + c.val, by omega⟩ := Fin.ext (by
    show min (64#32 : BitVec 32).toInt.toNat 64 + c.val = 64 + c.val
    rw [show (64#32 : BitVec 32).toInt.toNat = 64 by decide]; omega)
  rw [c0, c64]
  rfl

end Cert.KernelIdeal.EdgeGather

end
-- ==== Proof.PackedWeights.lean ====
/-
  The packed weights: the two halves of `W` side by side.

  Before the region the program slices rows `0 … 255` and rows `256 … 511` of `W` ([512, 64]) and concatenates the two
  [256, 64] pieces along the columns into a [256, 128] array.  Entry `(k, c)` with `c < 64` is `W[k, c]`; entry
  `(k, 64 + c)` is `W[256 + k, c]`.
-/
import proofs.«140750_j80539226735106_2_alg».proof.Proof.Gen.KernelIdeal
import Idealize.ShloMosaic.Lib.Pipeline.Value
import Idealize.ShloMosaic.Lib.ValueIdx

noncomputable section

namespace Cert.KernelIdeal.PackedWeights

open Cert.KernelIdeal Cert.KernelIdeal.Gen Idealize.ShloMosaic Idealize.ShloMosaic.ValueIdx

/-- The halves of `W` side by side, as the program builds them. -/
def pack (W : FVec Ideal S512x64 .f32) : FVec Ideal S256x128 .f32 :=
  concatenate S256x128 1
    [⟨S256x64, extractStridedSlice S256x64 ![0, 0] W slices_S512x64_S256x64_0_0⟩,
     ⟨S256x64, extractStridedSlice S256x64 ![256, 0] W slices_S512x64_S256x64_256_0⟩]
    concatenates_S256x64_S256x64_S256x128_d1

/-- A column below 64 reads the upper half. -/
theorem pack_left (W : FVec Ideal S512x64 .f32) (k : Fin 256) (c : Fin 64) :
    pack W (ix2 k (⟨c.val, by omega⟩ : Fin 128)) = W (ix2 (⟨k.val, by omega⟩ : Fin 512) c) := by
  unfold pack
  refine (concatenate_pair_apply_left (t := S256x128) (s₁ := S256x64) (s₂ := S256x64) (1 : Fin 2) _ _
    concatenates_S256x64_S256x64_S256x128_d1 (ix2 k (⟨c.val, by omega⟩ : Fin 128)) rfl
    (ix2 k c) (fun b => by match b with | ⟨0, _⟩ => rfl | ⟨1, _⟩ => rfl)).trans ?_
  exact extractStridedSlice_apply ![0, 0] W slices_S512x64_S256x64_0_0 (ix2 k c) (ix2 (⟨k.val, by omega⟩ : Fin 512) c) (fun a => by
    match a with
    | ⟨0, _⟩ => show k.val = 0 + k.val; omega
    | ⟨1, _⟩ => show c.val = 0 + c.val; omega)

/-- A column from 64 on reads the lower half, 64 columns to the left. -/
theorem pack_right (W : FVec Ideal S512x64 .f32) (k : Fin 256) (c : Fin 64) :
    pack W (ix2 k (⟨64 + c.val, by omega⟩ : Fin 128)) = W (ix2 (⟨256 + k.val, by omega⟩ : Fin 512) c) := by
  unfold pack
  refine (concatenate_pair_apply_right (t := S256x128) (s₁ := S256x64) (s₂ := S256x64) (1 : Fin 2) _ _
    concatenates_S256x64_S256x64_S256x128_d1 (ix2 k (⟨64 + c.val, by omega⟩ : Fin 128)) rfl rfl
    (ix2 k c) (fun b hb => by match b with | ⟨0, _⟩ => rfl | ⟨1, _⟩ => exact absurd rfl hb)
    (by show c.val + 64 = 64 + c.val; omega)).trans ?_
  exact extractStridedSlice_apply ![256, 0] W slices_S512x64_S256x64_256_0 (ix2 k c) (ix2 (⟨256 + k.val, by omega⟩ : Fin 512) c) (fun a => by
    match a with
    | ⟨0, _⟩ => show 256 + k.val = 256 + k.val; omega
    | ⟨1, _⟩ => show c.val = 0 + c.val; omega)

end Cert.KernelIdeal.PackedWeights

end
-- ==== Proof.KernelIsSpec.lean ====
/-
  The kernel program's result is the score array of Spec.lean.

  Three facts meet here.  (1) The region's output array is the product of `x` with the packed weights (KernelArray.lean),
  and the packed weights are the halves of `W` side by side (PackedWeights.lean): column `c < 64` of the product is the
  sum against the upper half, column `64 + c` the sum against the lower half.  (2) The lines after the region gather,
  for edge `e` and class `c`, that array at the source node's row, column `c`, and at the destination node's row, column
  `64 + c`, and add the bias (KernelTail.lean).  (3) The gather commutes with the row-wise product: gathering row
  `node` of the product is the product of row `node` of `x`.  Together, entry `(e, c)` of the result is `scoreAt`.
  Nothing here needs the inputs finite: no sum is split or reordered, each is only renamed.
-/
import proofs.«140750_j80539226735106_2_alg».proof.Proof.KernelArray
import proofs.«140750_j80539226735106_2_alg».proof.Proof.KernelTail
import proofs.«140750_j80539226735106_2_alg».proof.Proof.PackedWeights
import Idealize.ShloMosaic.Lib.StableHlo.Run

set_option maxRecDepth 16384

noncomputable section

open scoped BigOperators

namespace Cert.KernelIdeal.EdgeValue

open Cert.KernelIdeal Cert.KernelIdeal.Gen Idealize.ShloMosaic Idealize.ShloMosaic.TcCoe Idealize.ShloMosaic.ValueIdx Idealize.SL.Sem Cert.EdgeScore
open Cert.KernelIdeal.Projection Cert.KernelIdeal.EdgeGather Cert.KernelIdeal.PackedWeights

variable (m : (ℓ : Loc nD τ sig) → Buf (Elt Ideal) ℓ) (ρ : Dev nD → PrngReg)

/-! ## The packed weights as the region finds them -/

/-- The region's second operand, as the host lines before the region leave it, is the packing of `W` as launched. -/
theorem packed_eq (c : Dev nD) : V m c main_v2 = pack (m ((c : Thread nD τ).loc main_arg3)) := by
  show StableHlo.after hostOps0 (fun b => m (c, b)) (Proc.devRef .tc main_v2) = _
  after_results
  rfl

/-- Column `c` of the product with the packed weights: the sum against the upper half of `W`. -/
theorem product_pack_left (X : FVec Ideal S100000x256 .f32) (W : FVec Ideal S512x64 .f32) (r : Fin 100000) (c : Fin 64) :
    product X (pack W) (ix2 r (⟨c.val, by omega⟩ : Fin 128)) = projTop X W r c := by
  show productAt X (pack W) r (⟨c.val, by omega⟩ : Fin 128) = _
  unfold productAt projTop
  exact Finset.sum_congr rfl fun k _ => by rw [pack_left]

/-- Column `64 + c` of the product with the packed weights: the sum against the lower half of `W`. -/
theorem product_pack_right (X : FVec Ideal S100000x256 .f32) (W : FVec Ideal S512x64 .f32) (r : Fin 100000) (c : Fin 64) :
    product X (pack W) (ix2 r (⟨64 + c.val, by omega⟩ : Fin 128)) = projBot X W r c := by
  show productAt X (pack W) r (⟨64 + c.val, by omega⟩ : Fin 128) = _
  unfold productAt projBot
  exact Finset.sum_congr rfl fun k _ => by rw [pack_right]

/-! ## The lines after the region -/

set_option maxHeartbeats 4000000 in
/-- From any buffer contents, the 28 host lines after the region leave in the result buffer the gather-and-add of the
    projected array, the two node arrays and the bias found there. -/
theorem tail_after (Vl : Valuation τ sig (Elt Ideal)) :
    StableHlo.after hostOps1 Vl (Proc.devRef .tc main_v25)
      = gatherAdd (Vl (Proc.devRef .tc main_v3)) (Vl (Proc.devRef .tc main_arg1)) (Vl (Proc.devRef .tc main_arg2)) (Vl (Proc.devRef .tc main_arg4)) := by
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rfl

/-- The program's result after the run, from the region's output array and the arguments as launched. -/
theorem tail_eq (c : Dev nD) :
    Pipeline.afterTail₀ cfgs (dats m) 0 (V0 m) [hostOps1] c main_v25
      = gatherAdd ((dats m 0 c).arrAt 2 cfg0.N) (m ((c : Thread nD τ).loc main_arg1)) (m ((c : Thread nD τ).loc main_arg2))
          (m ((c : Thread nD τ).loc main_arg4)) := by
  unfold Pipeline.afterTail₀
  simp only [List.flatten_cons, List.flatten_nil, List.append_nil]
  rw [tail_after,
    Pipeline.withArrays_arr spec0 launch0.win.arr_inj c _ _ 2,
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg4 (by exact (by decide : ∀ w, Pipeline.arrRef spec0 w ≠ main_arg4))]
  exact congrArg₂ (fun a b => gatherAdd _ a b _) (V_main_arg1 m c) (V_main_arg2 m c) |>.trans
    (congrArg (gatherAdd _ _ _) (V_main_arg4 m c))

/-- THE RESULT IS THE SCORE ARRAY of the arguments as launched. -/
theorem result_eq (c : Dev nD) :
    Pipeline.afterTail₀ cfgs (dats m) 0 (V0 m) [hostOps1] c main_v25
      = score (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq, projected, V_main_arg0, packed_eq]
  funext i
  obtain ⟨e, k, rfl⟩ : ∃ (e : Fin 300000) (k : Fin 64), i = ix2 e k := ⟨i 0, i 1, eq_ix2 i⟩
  rw [gatherAdd_apply, product_pack_left, product_pack_right]
  rfl

/-! ## The run -/

/-- Every weakly fair execution of the kernel program terminates with the result buffer at the score array of the
    arguments as launched, and the arguments unchanged. -/
theorem run : θ_run defs (onTc (τ := τ) (main (F := Ideal))) ⟨m, fun _ => 0, ρ⟩ fun r => ∀ c : Dev nD,
      r.2.mem ((c.tc : Thread nD τ).loc main_v25)
        = score (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans (result_eq m c),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.EdgeValue

end
-- ==== Proof.lean ====
/-
  The five claims.

  Both idealized programs compute, for every edge `e` and class `c`,

      Σ_k x[node (src e), k] · W[k, c]  +  Σ_k x[node (dst e), k] · W[256 + k, c]  +  b[c]

  over the extended reals (Proof/Spec.lean, `score`).  The reference gathers the rows of `x` first and multiplies the
  gathered rows by the halves of `W` (Proof/RefIsSpec.lean).  The kernel program multiplies every row of `x` by the two
  halves of `W` packed side by side, inside the region, and gathers rows of the product afterwards
  (Proof/KernelIsSpec.lean and the modules under it).  A gather only selects a row, and each entry of a row of the product
  is a sum along that row alone, so the two orders agree sum by sum; rounding the matmul's operands to bf16 is the
  identity at the ideal values.  The precondition is not used.

  The frames of the two kernel programs are the generated ones; the reference's frame is its generated run with the
  result dropped; the idealization rewrote nothing, so `preserves` is `True`.
-/
import proofs.«140750_j80539226735106_2_alg».proof.Defs
import proofs.«140750_j80539226735106_2_alg».proof.Proof.Gen.Kernel
import proofs.«140750_j80539226735106_2_alg».proof.Proof.Gen.Kernel.Skeleton
import proofs.«140750_j80539226735106_2_alg».proof.Proof.Gen.Kernel.Launch
import proofs.«140750_j80539226735106_2_alg».proof.Proof.Gen.Kernel.Points
import proofs.«140750_j80539226735106_2_alg».proof.Proof.Gen.Kernel.Frame
import proofs.«140750_j80539226735106_2_alg».proof.Proof.Gen.KernelIdeal
import proofs.«140750_j80539226735106_2_alg».proof.Proof.Gen.KernelIdeal.Skeleton
import proofs.«140750_j80539226735106_2_alg».proof.Proof.Gen.KernelIdeal.Launch
import proofs.«140750_j80539226735106_2_alg».proof.Proof.Gen.KernelIdeal.Points
import proofs.«140750_j80539226735106_2_alg».proof.Proof.Gen.KernelIdeal.Frame
import proofs.«140750_j80539226735106_2_alg».proof.Proof.Gen.ReferenceIdeal
import proofs.«140750_j80539226735106_2_alg».proof.Proof.Gen.ReferenceIdeal.Run
import proofs.«140750_j80539226735106_2_alg».proof.Proof.Gen.ReferenceIdeal.Read
import proofs.«140750_j80539226735106_2_alg».proof.Proof.Gen.Pre_finite_inputs
import proofs.«140750_j80539226735106_2_alg».proof.Proof.RefIsSpec
import proofs.«140750_j80539226735106_2_alg».proof.Proof.KernelIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the score array of those arguments in their
    result buffers. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq_score,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
